-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x640000 : Shape := ⟨2, ![2, 640000]⟩
abbrev S640000x32 : Shape := ⟨2, ![640000, 32]⟩
abbrev S64x128 : Shape := ⟨2, ![64, 128]⟩
abbrev S200000 : Shape := ⟨1, ![200000]⟩
abbrev S160x128 : Shape := ⟨2, ![160, 128]⟩
abbrev S128 : Shape := ⟨1, ![128]⟩
abbrev S256x128 : Shape := ⟨2, ![256, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S640000x32 : S_.BroadcastsInDim S640000x32 (![] : Fin 0 → Fin S640000x32.rank)
  reducesTo_S640000x32_S_d0_1 : S640000x32.ReducesTo [0, 1] S_
  bcast_S_S64x128 : S_.BroadcastsInDim S64x128 (![] : Fin 0 → Fin S64x128.rank)
  reducesTo_S64x128_S_d0_1 : S64x128.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg6 : FVec F S128 .f32) (main_arg7 : FVec F S256x128 .f32) (main_arg8 : FVec F S128 .f32) (main_v13 : IVec S_ 1) (main_v16 : IVec S160x128 1) : IVec S_ 1 :=
  let main_c_5 : IVec S_ 1 := constantI S_ 1 1#1
  let main_v17 : IVec S_ 1 := (fun x v => Host.reduce IntOp.andi x v reducesTo_S160x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S200000x128 .f32) (main_arg1 : IVec S2x640000 32) (main_arg2 : FVec F S640000x32 .f32) (main_arg3 : FVec F S64x128 .f32) (main_arg4 : IVec S200000 32) (main_arg5 : FVec F S160x128 .f32) (main_arg6 : FVec F S128 .f32) (main_arg7 : FVec F S256x128 .f32) (main_arg8 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S640000x32 .f32 := Host.absf main_arg2
  let main_cst_0 : FVec F S_ .f32 := constant S_ .f32 0x7F800000#32
  let main_v5 : FVec F S640000x32 .f32 := broadcastInDim S640000x32 ![] bcast_S_S640000x32 main_cst_0
  let main_v6 : IVec S640000x32 1 := cmpf .olt main_v4 main_v5
  let main_c_1 : IVec S_ 1 := constantI S_ 1 1#1
  let main_v7 : IVec S_ 1 := (fun x v => Host.reduce IntOp.andi x v reducesTo_S640000x32_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S160x128 .f32 := Host.absf main_arg5
  let main_cst_4 : FVec F S_ .f32 := constant S_ .f32 0x7F800000#32
  let main_v15 : FVec F S160x128 .f32 := broadcastInDim S160x128 ![] bcast_S_S160x128 main_cst_4
  let main_v16 : IVec S160x128 1 := cmpf .olt main_v14 main_v15
  fn_part1 (F := F) main_arg6 main_arg7 main_arg8 main_v13 main_v16
-- ==== Kernel.lean ====
abbrev S200000x128 : Shape := ⟨2, ![200000, 128]⟩
abbrev S2x640000 : Shape := ⟨2, ![2, 640000]⟩
abbrev S640000x32 : Shape := ⟨2, ![640000, 32]⟩
abbrev S64x128 : Shape := ⟨2, ![64, 128]⟩
abbrev S200000 : Shape := ⟨1, ![200000]⟩
abbrev S160x128 : Shape := ⟨2, ![160, 128]⟩
abbrev S128 : Shape := ⟨1, ![128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x128 : Shape := ⟨2, ![128, 128]⟩
abbrev S32x128 : Shape := ⟨2, ![32, 128]⟩
abbrev S1x128 : Shape := ⟨2, ![1, 128]⟩
abbrev S16000x128 : Shape := ⟨2, ![16000, 128]⟩
abbrev S16000x32 : Shape := ⟨2, ![16000, 32]⟩
abbrev S10000x128 : Shape := ⟨2, ![10000, 128]⟩

abbrev nBuf : Space → Nat
  | .hbm => 34
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S2x640000, .i32⟩
  | .hbm, ⟨2, _⟩ => ⟨S640000x32, .f32⟩
  | .hbm, ⟨3, _⟩ => ⟨S64x128, .f32⟩
  | .hbm, ⟨4, _⟩ => ⟨S200000, .i32⟩
  | .hbm, ⟨5, _⟩ => ⟨S160x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S128x128, .f32⟩
  | .hbm, ⟨23, _⟩ => ⟨S32x128, .f32⟩
  | .hbm, ⟨24, _⟩ => ⟨S1x128, .f32⟩
  | .hbm, ⟨25, _⟩ => ⟨S640000x128, .f32⟩
  | .hbm, ⟨26, _⟩ => ⟨S_, .f32⟩
  | .hbm, ⟨27, _⟩ => ⟨S200000x128, .f32⟩
  | .hbm, ⟨28, _⟩ => ⟨S640000x1, .i32⟩
  | .hbm, ⟨29, _⟩ => ⟨S200000x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S200000x128, .f32⟩
  | .local _ .vmem, ⟨0, _⟩ => ⟨S16000x128, .f32⟩
  | .local _ .vmem, ⟨1, _⟩ => ⟨S16000x128, .f32⟩
  | .local _ .vmem, ⟨2, _⟩ => ⟨S16000x32, .f32⟩
  | .local _ .vmem, ⟨3, _⟩ => ⟨S16000x32, .f32⟩
  | .local _ .vmem, ⟨4, _⟩ => ⟨S128x128, .f32⟩
  | .local _ .vmem, ⟨5, _⟩ => ⟨S32x128, .f32⟩
  | .local _ .vmem, ⟨6, _⟩ => ⟨S1x128, .f32⟩
  | .local _ .vmem, ⟨7, _⟩ => ⟨S16000x128, .f32⟩
  | .local _ .vmem, ⟨8, _⟩ => ⟨S16000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  slices_S160x128_S128x128_0_0 : S160x128.Slices ![0, 0] S128x128
  slices_S160x128_S32x128_128_0 : S160x128.Slices ![128, 0] S32x128
  shapeCasts_S128_S1x128 : S128.ShapeCasts S1x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  bitsLt_bf16_f32 : FTy.bits .bf16 < FTy.bits .f32
  inb_S16000x32_S16000x32_0_0 : ∀ a, (![0, 0] : Fin 2 → Nat) a + S16000x32.size a ≤ S16000x32.size a
  h_S16000x32 : 0 < S16000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  bcast_S_S200000x128 : S_.BroadcastsInDim S200000x128 (![] : Fin 0 → Fin S200000x128.rank)
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S200000x128_S640000x1_S640000x128_1_0_n_n_0_1_1128_wf : GatherDims.WF S200000x128 S640000x1 S640000x128 [1] [0] [] [0] [] 1 ![1, 128]
  dot_S16000x128_S128x128_S16000x128_1_0_0_1_n_n_wf : DotDims.WF S16000x128 S128x128 S16000x128 [1] [0] [0] [1] [] []
  dot_S16000x32_S32x128_S16000x128_1_0_0_1_n_n_wf : DotDims.WF S16000x32 S32x128 S16000x128 [1] [0] [0] [1] [] []
  scatter_S200000x128_S640000x1_S640000x128_1_0_0_1_wf : ScatterDims.WF S200000x128 S640000x1 S640000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S640000x128.size a
  hwx0_0 : ∀ i : grid0.Coords, EltTy.bits .f32 = 32 ∨ (Rect.block (s := S640000x128) S16000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S640000x32.size a
  hwx0_1 : ∀ i : grid0.Coords, EltTy.bits .f32 = 32 ∨ (Rect.block (s := S640000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x128.size a ≤ S640000x128.size a
  hwx0_5 : ∀ i : grid0.Coords, EltTy.bits .f32 = 32 ∨ (Rect.block (s := S640000x128) S16000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S200000x128.size a
  hwx1_1 : ∀ i : grid1.Coords, EltTy.bits .f32 = 32 ∨ (Rect.block (s := S200000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S200000x128.size a
  hwx1_5 : ∀ i : grid1.Coords, EltTy.bits .f32 = 32 ∨ (Rect.block (s := S200000x128) S10000x128.size (cc1_transform_5 i) (hinb1_5 i)).WholeWords (EltTy.packing .f32)

variable [Facts₀]

def gather_S200000x128_S640000x1_S640000x128_1_0_n_n_0_1_1128 : GatherDims S200000x128 S640000x1 S640000x128 where
  offsetDims := [1]
  collapsedSliceDims := [0]
  operandBatchingDims := []
  startIndicesBatchingDims := []
  startIndexMap := [0]
  indexVectorDim := 1
  sliceSizes := ![1, 128]
  wf := gather_S200000x128_S640000x1_S640000x128_1_0_n_n_0_1_1128_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x32_S32x128_S16000x128_1_0_0_1_n_n : DotDims S16000x32 S32x128 S16000x128 where
  lhsContracting := [1]
  rhsContracting := [0]
  lhsNonContracting := [0]
  rhsNonContracting := [1]
  lhsBatch := []
  rhsBatch := []
  wf := dot_S16000x32_S32x128_S16000x128_1_0_0_1_n_n_wf
def scatter_S200000x128_S640000x1_S640000x128_1_0_0_1 : ScatterDims S200000x128 S640000x1 S640000x128 where
  updateWindowDims := [1]
  insertedWindowDims := [0]
  scatterDimsToOperandDims := [0]
  indexVectorDim := 1
  wf := scatter_S200000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v10) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S16000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x640000 : Shape := ⟨2, ![2, 640000]⟩
abbrev S640000x32 : Shape := ⟨2, ![640000, 32]⟩
abbrev S64x128 : Shape := ⟨2, ![64, 128]⟩
abbrev S200000 : Shape := ⟨1, ![200000]⟩
abbrev S160x128 : Shape := ⟨2, ![160, 128]⟩
abbrev S128 : Shape := ⟨1, ![128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x160 : Shape := ⟨2, ![640000, 160]⟩
abbrev S1x128 : Shape := ⟨2, ![1, 128]⟩
abbrev S200000x256 : Shape := ⟨2, ![200000, 256]⟩

abbrev nBuf : Space → Nat
  | .hbm => 36
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x640000, .i32⟩
  | .hbm, ⟨2, _⟩ => ⟨S640000x32, .f32⟩
  | .hbm, ⟨3, _⟩ => ⟨S64x128, .f32⟩
  | .hbm, ⟨4, _⟩ => ⟨S200000, .i32⟩
  | .hbm, ⟨5, _⟩ => ⟨S160x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S640000x160, .f32⟩
  | .hbm, ⟨23, _⟩ => ⟨S640000x128, .f32⟩
  | .hbm, ⟨24, _⟩ => ⟨S1x128, .f32⟩
  | .hbm, ⟨25, _⟩ => ⟨S640000x128, .f32⟩
  | .hbm, ⟨26, _⟩ => ⟨S640000x128, .f32⟩
  | .hbm, ⟨27, _⟩ => ⟨S_, .f32⟩
  | .hbm, ⟨28, _⟩ => ⟨S200000x128, .f32⟩
  | .hbm, ⟨29, _⟩ => ⟨S640000x1, .i32⟩
  | .hbm, ⟨30, _⟩ => ⟨S200000x128, .f32⟩
  | .hbm, ⟨31, _⟩ => ⟨S200000x256, .f32⟩
  | .hbm, ⟨32, _⟩ => ⟨S200000x128, .f32⟩
  | .hbm, ⟨33, _⟩ => ⟨S1x128, .f32⟩
  | .hbm, ⟨34, _⟩ => ⟨S200000x128, .f32⟩
  | .hbm, ⟨35, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x32_S640000x160_d1 : Shape.Concatenates [S640000x128, S640000x32] S640000x160 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S200000x128 : S_.BroadcastsInDim S200000x128 (![] : Fin 0 → Fin S200000x128.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  gather_S200000x128_S640000x1_S640000x128_1_0_n_n_0_1_1128_wf : GatherDims.WF S200000x128 S640000x1 S640000x128 [1] [0] [] [0] [] 1 ![1, 128]
  dot_S640000x160_S160x128_S640000x128_1_0_0_1_n_n_wf : DotDims.WF S640000x160 S160x128 S640000x128 [1] [0] [0] [1] [] []
  scatter_S200000x128_S640000x1_S640000x128_1_0_0_1_wf : ScatterDims.WF S200000x128 S640000x1 S640000x128 [1] [0] [0] 1
  dot_S200000x256_S256x128_S200000x128_1_0_0_1_n_n_wf : DotDims.WF S200000x256 S256x128 S200000x128 [1] [0] [0] [1] [] []

variable [Facts₀]

def gather_S200000x128_S640000x1_S640000x128_1_0_n_n_0_1_1128 : GatherDims S200000x128 S640000x1 S640000x128 where
  offsetDims := [1]
  collapsedSliceDims := [0]
  operandBatchingDims := []
  startIndicesBatchingDims := []
  startIndexMap := [0]
  indexVectorDim := 1
  sliceSizes := ![1, 128]
  wf := gather_S200000x128_S640000x1_S640000x128_1_0_n_n_0_1_1128_wf
def dot_S640000x160_S160x128_S640000x128_1_0_0_1_n_n : DotDims S640000x160 S160x128 S640000x128 where
  lhsContracting := [1]
  rhsContracting := [0]
  lhsNonContracting := [0]
  rhsNonContracting := [1]
  lhsBatch := []
  rhsBatch := []
  wf := dot_S640000x160_S160x128_S640000x128_1_0_0_1_n_n_wf
def scatter_S200000x128_S640000x1_S640000x128_1_0_0_1 : ScatterDims S200000x128 S640000x1 S640000x128 where
  updateWindowDims := [1]
  insertedWindowDims := [0]
  scatterDimsToOperandDims := [0]
  indexVectorDim := 1
  wf := scatter_S200000x128_S640000x1_S640000x128_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.KernelRun.lean ====
/-
  The idealized kernel program's run, with its result array named.

  The program is four stretches in a row: host operations, the first launch, host operations, the second launch. The
  buffer contents at each boundary form a chain `W0 → W1 → W2 → W3 → W4`: `W1` is `W0` after the first stretch of host
  operations, `W2` is `W1` with the first launch's arrays replaced by what its write-backs leave, `W3` is `W2` after the
  second stretch, `W4` is `W3` with the second launch's arrays replaced likewise. Every weakly fair execution terminates
  with every unscoped buffer at `W4`; so the result buffer ends at `W4` read there, and the nine argument buffers, which no
  stretch writes, end as launched.
-/
import proofs.«103810_j10393820857012_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with the
    result buffer at the last boundary's contents and the argument buffers as launched. -/
theorem run : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«103810_j10393820857012_1_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibSplitLinear.lean ====
/-
  A linear layer on two column blocks, read entry by entry.

  Let `a` be an [M, Ka] matrix, `b` an [M, Kb] matrix, `W` a [K, N] matrix with K = Ka + Kb, and `bias` a vector of
  length N. Writing [a | b] for the two matrices laid side by side, the entry (p, q) of [a | b] · W + bias is

      ( ∑ k < Ka, a (p, k) · W (k, q)  +  ∑ k < Kb, b (p, k) · W (Ka + k, q) )  +  bias q          (`entry`)

  because a sum over the K columns of [a | b] is the sum over its first Ka columns, where it holds `a`, plus the sum over
  its last Kb, where it holds `b`. Only the associativity and commutativity of addition are used, so the identity holds on
  the extended reals with no finiteness assumed.

  Two programs that compute it are read here at an index:
    * the host's form — concatenate along axis 1, one `dot_general` against the whole `W`, the bias placed as a row and
      repeated down the rows (`host_apply`);
    * a tile's form — two matrix products into zero accumulators, one per column block against its own rows of the weight,
      added, plus a [1, N] row repeated down the tile (`tile_apply`), whatever float formats the products' operands have;
      when the tile's two weights are the upper and lower row blocks cut from `W` and its row is `bias` recast as [1, N],
      the tile's entry is `entry` (`tileEntry_cut`).
  `layer` is the whole [M, N] array of entries; `host_eq` and `tile_cut_eq` are the two forms as array equations.
-/
import proofs.«103810_j10393820857012_1_alg».proof.Proof.LibPlainDot
import proofs.«103810_j10393820857012_1_alg».proof.Proof.LibDotSums
import proofs.«103810_j10393820857012_1_alg».proof.Proof.LibBiasRow
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.SplitLinear

open Idealize.ShloMosaic Idealize.ShloMosaic.ValueIdx

variable {M Ka Kb K N : Nat}

/-- Row `k` of the weight's upper block, as a row of the whole weight. -/
def topRow (hK : Ka + Kb = K) (k : Fin Ka) : Fin K := ⟨k.val, by have := k.isLt; omega⟩

/-- Row `k` of the weight's lower block, as a row of the whole weight: `Ka` rows further down. -/
def botRow (hK : Ka + Kb = K) (k : Fin Kb) : Fin K := ⟨Ka + k.val, by have := k.isLt; omega⟩

/-- The entry (p, q) of [a | b] · W + bias, the contraction written block by block. -/
def entry (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) : EReal :=
  (∑ k : Fin Ka, a (ix2 p k) * W (ix2 (topRow hK k) q) + ∑ k : Fin Kb, b (ix2 p k) * W (ix2 (botRow hK k) q))
    + bias (ix1 q)

/-- A sum over K = Ka + Kb indices is the sum over the first Ka plus the sum over the last Kb. -/
theorem sum_split (hK : Ka + Kb = K) (f : Fin K → EReal) :
    ∑ k : Fin K, f k = ∑ k : Fin Ka, f (topRow hK k) + ∑ k : Fin Kb, f (botRow hK k) := by
  subst hK
  rw [Fin.sum_univ_add]
  exact congrArg₂ (· + ·) (Finset.sum_congr rfl fun k _ => congrArg f (Fin.ext rfl))
    (Finset.sum_congr rfl fun k _ => congrArg f (Fin.ext rfl))

/-- [a | b] at a column of its left part is `a` there. -/
theorem cat_top {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Ka) :
    concatenate ⟨2, ![M, K]⟩ 1 [⟨⟨2, ![M, Ka]⟩, a⟩, ⟨⟨2, ![M, Kb]⟩, b⟩] hc (ix2 p (topRow hK k)) = a (ix2 p k) :=
  concatenate_pair_apply_left 1 a b hc (ix2 p (topRow hK k)) rfl (ix2 p k) (fun ax => by
    match ax with
    | ⟨0, _⟩ => rfl
    | ⟨1, _⟩ => rfl)

/-- [a | b] at a column of its right part is `b` at that column less the left part's width. -/
theorem cat_bot {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Kb) :
    concatenate ⟨2, ![M, K]⟩ 1 [⟨⟨2, ![M, Ka]⟩, a⟩, ⟨⟨2, ![M, Kb]⟩, b⟩] hc (ix2 p (botRow hK k)) = b (ix2 p k) :=
  concatenate_pair_apply_right 1 a b hc (ix2 p (botRow hK k)) rfl rfl (ix2 p k) (fun ax hne => by
    match ax with
    | ⟨0, _⟩ => rfl
    | ⟨1, _⟩ => exact absurd rfl hne)
    (by show k.val + Ka = Ka + k.val; omega)

/-- THE HOST'S FORM at (p, q): the `dot_general` of the concatenation against the whole weight, plus the bias placed as
    a row and repeated down the rows, is `entry`. -/
theorem host_apply (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) (p : Fin M) (q : Fin N) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias)) (ix2 p q)
      = entry hK a b W bias p q := by
  rw [addf_apply]
  unfold entry
  refine congrArg₂ (· + ·) ?_ ?_
  · refine (Cert.DotSums.dotGeneral_ix2 d prec .single hlb hln hlc hrb hrn hrc hr hs _ W p q).trans ?_
    rw [sum_split hK]
    refine congrArg₂ (· + ·) (Finset.sum_congr rfl fun k _ => ?_) (Finset.sum_congr rfl fun k _ => ?_)
    · rw [cat_top hK hc a b p k]
    · rw [cat_bot hK hc a b p k]
  · rw [Cert.BiasRow.down_apply, Cert.BiasRow.row_apply]

/-- The two block sums along row `p` against column `q` of each block's own weight, plus the row's entry `q`. -/
def tileEntry {A : Nat} (a : (⟨2, ![A, Ka]⟩ : Shape).Idx → EReal) (wa : (⟨2, ![Ka, N]⟩ : Shape).Idx → EReal)
    (b : (⟨2, ![A, Kb]⟩ : Shape).Idx → EReal) (wb : (⟨2, ![Kb, N]⟩ : Shape).Idx → EReal)
    (row : (⟨2, ![1, N]⟩ : Shape).Idx → EReal) (p : Fin A) (q : Fin N) : EReal :=
  (∑ k : Fin Ka, a (ix2 p k) * wa (ix2 k q) + ∑ k : Fin Kb, b (ix2 p k) * wb (ix2 k q)) + row (ix2 (0 : Fin 1) q)

/-- With the weights the upper `Ka` rows and the next `Kb` rows cut from `W`, and the row the bias vector recast as
    [1, N], the tile's entry is the entry of [a | b] · W + bias. -/
theorem tileEntry_cut (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) :
    tileEntry a (extractStridedSlice ⟨2, ![Ka, N]⟩ ![0, 0] W hst) b (extractStridedSlice ⟨2, ![Kb, N]⟩ ![Ka, 0] W hsb)
        (shapeCast ⟨2, ![1, N]⟩ bias hrs) p q
      = entry hK a b W bias p q := by
  unfold tileEntry entry
  refine congrArg₂ (· + ·) (congrArg₂ (· + ·) (Finset.sum_congr rfl fun k _ => ?_) (Finset.sum_congr rfl fun k _ => ?_)) ?_
  · rw [slice2_axis0_apply 0 W hst k q (topRow hK k) (by show k.val = 0 + k.val; omega)]
  · rw [slice2_axis0_apply Ka W hsb k q (botRow hK k) rfl]
  · exact shapeCast_a_1a_apply bias hrs 0 q

/-- THE TILE'S FORM at (p, q): two products into zero accumulators, added, plus a [1, N] row repeated down the tile —
    the two block sums plus the row's entry `q`. The operands' float formats are free. -/
theorem tile_apply {A : Nat} {φ₁ φ₂ φ₃ φ₄ : FTy}
    (d₁ : DotDims ⟨2, ![A, Ka]⟩ ⟨2, ![Ka, N]⟩ ⟨2, ![A, N]⟩)
    (hlb₁ : d₁.lhsBatch = []) (hln₁ : d₁.lhsNonContracting = [0]) (hlc₁ : d₁.lhsContracting = [1])
    (hrb₁ : d₁.rhsBatch = []) (hrn₁ : d₁.rhsNonContracting = [1]) (hrc₁ : d₁.rhsContracting = [0])
    (hr₁ : d₁.contr.rank = 1) (hs₁ : d₁.contr.size ⟨0, by omega⟩ = Ka)
    (d₂ : DotDims ⟨2, ![A, Kb]⟩ ⟨2, ![Kb, N]⟩ ⟨2, ![A, N]⟩)
    (hlb₂ : d₂.lhsBatch = []) (hln₂ : d₂.lhsNonContracting = [0]) (hlc₂ : d₂.lhsContracting = [1])
    (hrb₂ : d₂.rhsBatch = []) (hrn₂ : d₂.rhsNonContracting = [1]) (hrc₂ : d₂.rhsContracting = [0])
    (hr₂ : d₂.contr.rank = 1) (hs₂ : d₂.contr.size ⟨0, by omega⟩ = Kb)
    (prec₁ prec₂ : Option ContractPrecision) (hbr : (⟨2, ![1, N]⟩ : Shape).Broadcasts ⟨2, ![A, N]⟩)
    (a : FVec Ideal ⟨2, ![A, Ka]⟩ φ₁) (wa : FVec Ideal ⟨2, ![Ka, N]⟩ φ₂)
    (b : FVec Ideal ⟨2, ![A, Kb]⟩ φ₃) (wb : FVec Ideal ⟨2, ![Kb, N]⟩ φ₄)
    (row : FVec Ideal ⟨2, ![1, N]⟩ .f32) (p : Fin A) (q : Fin N) :
    addf (addf (matmul d₁ prec₁ a wa (constant (F := Ideal) ⟨2, ![A, N]⟩ .f32 0x00000000#32))
               (matmul d₂ prec₂ b wb (constant (F := Ideal) ⟨2, ![A, N]⟩ .f32 0x00000000#32)))
         (broadcastTo ⟨2, ![A, N]⟩ row hbr) (ix2 p q)
      = tileEntry a wa b wb row p q := by
  unfold tileEntry
  rw [addf_apply, addf_apply]
  refine congrArg₂ (· + ·) (congrArg₂ (· + ·) ?_ ?_) ?_
  · exact Cert.DotSums.matmul_zero_ix2 d₁ prec₁ hlb₁ hln₁ hlc₁ hrb₁ hrn₁ hrc₁ hr₁ hs₁ a wa p q
  · exact Cert.DotSums.matmul_zero_ix2 d₂ prec₂ hlb₂ hln₂ hlc₂ hrb₂ hrn₂ hrc₂ hr₂ hs₂ b wb p q
  · exact broadcastTo_1b_ab_apply row hbr p q

/-! ## The whole arrays -/

/-- The [M, N] array [a | b] · W + bias. -/
def layer (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) : (⟨2, ![M, N]⟩ : Shape).Idx → EReal :=
  fun i => entry hK a b W bias (i 0) (i 1)

/-- The host's form is the array `layer`. -/
theorem host_eq (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias))
      = layer hK a b W bias := by
  funext i
  obtain ⟨p, q, rfl⟩ : ∃ (p : Fin M) (q : Fin N), i = ix2 p q := ⟨i 0, i 1, eq_ix2 i⟩
  exact host_apply hK d hlb hln hlc hrb hrn hrc hr hs prec hc hb1 hb2 a b W bias p q

/-- The array of tile entries, with the weights cut from `W` and the row recast from `bias`, is the array `layer`. -/
theorem tile_cut_eq (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) :
    (fun i : (⟨2, ![M, N]⟩ : Shape).Idx =>
        tileEntry a (extractStridedSlice ⟨2, ![Ka, N]⟩ ![0, 0] W hst) b (extractStridedSlice ⟨2, ![Kb, N]⟩ ![Ka, 0] W hsb)
          (shapeCast ⟨2, ![1, N]⟩ bias hrs) (i 0) (i 1))
      = layer hK a b W bias :=
  funext fun i => tileEntry_cut hK hst hsb hrs a b W bias (i 0) (i 1)

end Cert.SplitLinear

end
-- ==== Proof.Region0.lean ====
/-
  The first launch's output array, as one function of the arrays the launch finds.

  The launch tiles the 640000 rows into 40 blocks of 16000. At grid point `t` the body sees rows
  16000·t … 16000·t + 15999 of the gathered node features `a` ([640000, 128]) and of the edge features `b` ([640000, 32]),
  the whole of both weight blocks `wa` ([128, 128]) and `wb` ([32, 128]) and the whole bias row ([1, 128]); it writes
  `a_t · wa + b_t · wb + row` into rows 16000·t … of the output. An entry (r, q) of the output therefore depends on row `r`
  of `a` and `b` only: it is the two block sums along row `r` plus the row's entry `q` (`Cert.SplitLinear.tileEntry`), the same
  function of (r, q) at every point. The 40 blocks cover every row (row `r` lies in block `r / 16000`), so after the launch
  the whole array is that function.
-/
import proofs.«103810_j10393820857012_1_alg».proof.Proof.Gen.KernelIdeal.Frame
import proofs.«103810_j10393820857012_1_alg».proof.Proof.LibSplitLinear
import Idealize.ShloMosaic.Lib.Pipeline.Value
import Idealize.ShloMosaic.Lib.ValueIdx

set_option maxRecDepth 16384

open scoped BigOperators

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at (p, q): the two block sums along row `p` of the two input tiles, plus the row's entry. -/
theorem pay_apply (x0 : Vec Ideal S16000x128 .f32) (x1 : Vec Ideal S16000x32 .f32) (x2 : Vec Ideal S128x128 .f32)
    (x3 : Vec Ideal S32x128 .f32) (x4 : Vec Ideal S1x128 .f32) (p : Fin 16000) (q : Fin 128) :
    k0_pay1 x0 x1 x2 x3 x4 (ix2 p q) = Cert.SplitLinear.tileEntry x0 x2 x1 x3 x4 p q := by
  unfold k0_pay1
  simp only [shapeCast_self]
  exact Cert.SplitLinear.tile_apply dot_S16000x128_S128x128_S16000x128_1_0_0_1_n_n rfl rfl rfl rfl rfl rfl rfl rfl
    dot_S16000x32_S32x128_S16000x128_1_0_0_1_n_n rfl rfl rfl rfl rfl rfl rfl rfl none none broadcasts_S1x128_S16000x128
    (truncf .bf16 x0 bitsLt_bf16_f32) (truncf .bf16 x2 bitsLt_bf16_f32) (truncf .bf16 x1 bitsLt_bf16_f32)
    (truncf .bf16 x3 bitsLt_bf16_f32) x4 p q

/-- The output array's function: entry (r, q) from row `r` of `a` and `b`, the weights and the bias row. -/
def G (a : S640000x128.Idx → EReal) (b : S640000x32.Idx → EReal) (wa : S128x128.Idx → EReal) (wb : S32x128.Idx → EReal)
    (row : S1x128.Idx → EReal) : S640000x128.Idx → EReal :=
  fun i => Cert.SplitLinear.tileEntry a wa b wb row (i 0) (i 1)

theorem zero_offsets : (![0, 0] : Fin 2 → Nat) = fun _ => 0 := funext fun a => by fin_cases a <;> rfl

/-- The block index maps over the grid: the two row-tiled inputs and the output are at block `t` along the rows, the
    weights and the bias row always at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 40 := lt_of_lt_of_eq t.isLt N_0

/-- Row `p` of block `t`, as a row of the whole array. -/
def rowOf (t : Fin cfg0.N) (p : Fin 16000) : Fin 640000 :=
  ⟨16000 * t.val + p.val, by have := point_lt t; have := p.isLt; omega⟩

variable (V : (c : Dev nD) → (b : Ref sig .tc) → Buf (Elt Ideal) ((c : Thread nD τ).loc b))

/-- Block `t` of the gathered features, at (p, k): the array at row 16000·t + p. -/
theorem read_a (c : Dev nD) (t : Fin cfg0.N) (p : Fin 16000) (k : Fin 128) :
    iblk0 V c 0 t (ix2 p k) = V c main_v10 (ix2 (rowOf t p) k) := by
  show V c main_v10 (((cfg0.win 0).blk t).view.emb (ix2 p k)) = V c main_v10 (ix2 (rowOf t p) k)
  refine congrArg (V c main_v10) ?_
  obtain ⟨e0, e1, -⟩ := idx_facts t
  funext a; apply Fin.ext
  match a with
  | ⟨0, _⟩ => show win0_0.index t (0 : Fin 2) * 16000 + 1 * p.val = 16000 * t.val + p.val; omega
  | ⟨1, _⟩ => show win0_0.index t (1 : Fin 2) * 128 + 1 * k.val = k.val; omega

/-- Block `t` of the edge features, at (p, k): the array at row 16000·t + p. -/
theorem read_b (c : Dev nD) (t : Fin cfg0.N) (p : Fin 16000) (k : Fin 32) :
    iblk0 V c 1 t (ix2 p k) = V c main_arg2 (ix2 (rowOf t p) k) := by
  show V c main_arg2 (((cfg0.win 1).blk t).view.emb (ix2 p k)) = V c main_arg2 (ix2 (rowOf t p) k)
  refine congrArg (V c main_arg2) ?_
  obtain ⟨-, -, e0, e1, -⟩ := idx_facts t
  funext a; apply Fin.ext
  match a with
  | ⟨0, _⟩ => show win0_1.index t (0 : Fin 2) * 16000 + 1 * p.val = 16000 * t.val + p.val; omega
  | ⟨1, _⟩ => show win0_1.index t (1 : Fin 2) * 32 + 1 * k.val = k.val; omega

/-- The upper weight block's one block is the whole array. -/
theorem read_wa (c : Dev nD) (t : Fin cfg0.N) (k : Fin 128) (q : Fin 128) :
    iblk0 V c 2 t (ix2 k q) = V c main_v11 (ix2 k q) := by
  show V c main_v11 (((cfg0.win 2).blk t).view.emb (ix2 k q)) = V c main_v11 (ix2 k q)
  refine congrArg (V c main_v11) ?_
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The lower weight block's one block is the whole array. -/
theorem read_wb (c : Dev nD) (t : Fin cfg0.N) (k : Fin 32) (q : Fin 128) :
    iblk0 V c 3 t (ix2 k q) = V c main_v12 (ix2 k q) := by
  show V c main_v12 (((cfg0.win 3).blk t).view.emb (ix2 k q)) = V c main_v12 (ix2 k q)
  refine congrArg (V c main_v12) ?_
  obtain ⟨-, -, -, -, -, -, e0, e1, -⟩ := idx_facts t
  funext a; apply Fin.ext
  match a with
  | ⟨0, _⟩ => show win0_3.index t (0 : Fin 2) * 32 + 1 * k.val = k.val; omega
  | ⟨1, _⟩ => show win0_3.index t (1 : Fin 2) * 128 + 1 * q.val = q.val; omega

/-- The bias row's one block is the whole array. -/
theorem read_row (c : Dev nD) (t : Fin cfg0.N) (u : Fin 1) (q : Fin 128) :
    iblk0 V c 4 t (ix2 u q) = V c main_v13 (ix2 u q) := by
  show V c main_v13 (((cfg0.win 4).blk t).view.emb (ix2 u q)) = V c main_v13 (ix2 u q)
  refine congrArg (V c main_v13) ?_
  obtain ⟨-, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 128 + 1 * q.val = q.val; omega

/-- An entry of the output's block `t` sits in the array at row 16000·t + p. -/
theorem out_emb (t : Fin cfg0.N) (p : Fin 16000) (q : Fin 128) :
    ((cfg0.win 5).blk t).view.emb (ix2 p q) = (ix2 (rowOf t p) q : S640000x128.Idx) := by
  obtain ⟨-, -, -, -, -, -, -, -, -, -, e0, e1⟩ := idx_facts t
  funext a; apply Fin.ext
  match a with
  | ⟨0, _⟩ => show win0_5.index t (0 : Fin 2) * 16000 + 1 * p.val = 16000 * t.val + p.val; omega
  | ⟨1, _⟩ => show win0_5.index t (1 : Fin 2) * 128 + 1 * q.val = q.val; omega

/-- WHAT POINT `t` WRITES BACK is block `t` of `G` of the arrays the launch finds. -/
theorem flushed_eq (c : Dev nD) (t : Fin cfg0.N) :
    (dat0 V c).flushed 5 t
      = ((cfg0.win 5).blk t).view.read (Elt Ideal) (G (V c main_v10) (V c main_arg2) (V c main_v11) (V c main_v12) (V c main_v13)) := by
  show (cfg0.win 5).cut (grid0.coords t) ((dat0 V c).after 5 t) = _
  rw [after0_5]
  unfold out0_5
  rw [View.canon_unit_zero zero_offsets]
  simp only [View.ld_unit_zero (S := S16000x128) zero_offsets, View.ld_unit_zero (S := S16000x32) zero_offsets,
    View.ld_unit_zero (S := S128x128) zero_offsets, View.ld_unit_zero (S := S32x128) zero_offsets,
    View.ld_unit_zero (S := S1x128) zero_offsets]
  funext j
  obtain ⟨p, q, rfl⟩ : ∃ (p : Fin 16000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = G (V c main_v10) (V c main_arg2) (V c main_v11) (V c main_v12) (V c main_v13) (((cfg0.win 5).blk t).view.emb (ix2 p q))
  rw [pay_apply, out_emb]
  unfold G Cert.SplitLinear.tileEntry
  refine congrArg₂ (· + ·) (congrArg₂ (· + ·) (Finset.sum_congr rfl fun k _ => ?_) (Finset.sum_congr rfl fun k _ => ?_)) ?_
  · rw [read_a, read_wa]
  · rw [read_b, read_wb]
  · exact read_row V c t 0 q

/-- An index of the array is in point `t`'s block iff each coordinate is in the block's range on its axis. -/
theorem mem_blk (t : Fin cfg0.N) (i : S640000x128.Idx) :
    i ∈ ((cfg0.win 5).blk t).view.set ↔ ∀ a : Fin 2, win0_5.index t a * S16000x128.size a ≤ (i a).val ∧ (i a).val < win0_5.index t a * S16000x128.size a + S16000x128.size a := by
  show i ∈ ((View.whole main_v14).slice (win0_5.rect t)).set ↔ _
  rw [View.set_slice_whole, Rect.mem_set_unit]
  exact Iff.rfl

/-- Every block row is some point's. -/
theorem idx_onto : ∀ q0 : Fin 40, ∃ t : Fin cfg0.N, win0_5.index t = ![q0.val, 0] :=
  (by decide +kernel : ∀ q0 : Fin 40, ∃ t : Fin grid0.N, win0_5.index t = ![q0.val, 0])

/-- THE COVER: row `r` lies in the block of point `r / 16000`. -/
theorem cover (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  obtain ⟨t, ht⟩ := idx_onto ⟨(i 0).val / 16000, by omega⟩
  have q0 : win0_5.index t (0 : Fin 2) = (i 0).val / 16000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 16000 ≤ (i 0).val ∧ (i 0).val < win0_5.index t (0 : Fin 2) * 16000 + 16000; omega
  | ⟨1, _⟩ => show win0_5.index t (1 : Fin 2) * 128 ≤ (i 1).val ∧ (i 1).val < win0_5.index t (1 : Fin 2) * 128 + 128; omega

/-- THE ARRAY after the launch: `G` of the arrays the launch finds. -/
theorem final (c : Dev nD) :
    (dat0 V c).arrAt 5 cfg0.N = G (V c main_v10) (V c main_arg2) (V c main_v11) (V c main_v12) (V c main_v13) :=
  (dat0 V c).arrAt_eq_of_cover 5 _ (fun t _ => flushed_eq V c t) cover

end Cert.KernelIdeal.Region0

end
-- ==== Proof.Region1.lean ====
/-
  The second launch's output array, as one function of the arrays the launch finds.

  The launch tiles the 200000 rows into 20 blocks of 10000. At grid point `t` the body sees rows
  10000·t … 10000·t + 9999 of the node features `a` and of the aggregated messages `b` (both [200000, 128]), the whole of
  both weight blocks `wa` and `wb` (both [128, 128]) and the whole bias row ([1, 128]); it writes `a_t · wa + b_t · wb + row`
  into rows 10000·t … of the output. An entry (r, q) of the output depends on row `r` of `a` and `b` only: the two block
  sums along row `r` plus the row's entry `q` (`Cert.SplitLinear.tileEntry`), the same function of (r, q) at every point. The
  20 blocks cover every row (row `r` lies in block `r / 10000`), so after the launch the whole array is that function.
-/
import proofs.«103810_j10393820857012_1_alg».proof.Proof.Gen.KernelIdeal.Frame
import proofs.«103810_j10393820857012_1_alg».proof.Proof.LibSplitLinear
import Idealize.ShloMosaic.Lib.Pipeline.Value
import Idealize.ShloMosaic.Lib.ValueIdx

set_option maxRecDepth 16384

open scoped BigOperators

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at (p, q): the two block sums along row `p` of the two input tiles, plus the row's entry. -/
theorem pay_apply (x0 : Vec Ideal S10000x128 .f32) (x1 : Vec Ideal S10000x128 .f32) (x2 : Vec Ideal S128x128 .f32)
    (x3 : Vec Ideal S128x128 .f32) (x4 : Vec Ideal S1x128 .f32) (p : Fin 10000) (q : Fin 128) :
    k1_pay1 x0 x1 x2 x3 x4 (ix2 p q) = Cert.SplitLinear.tileEntry x0 x2 x1 x3 x4 p q := by
  unfold k1_pay1
  simp only [shapeCast_self]
  exact Cert.SplitLinear.tile_apply dot_S10000x128_S128x128_S10000x128_1_0_0_1_n_n rfl rfl rfl rfl rfl rfl rfl rfl
    dot_S10000x128_S128x128_S10000x128_1_0_0_1_n_n rfl rfl rfl rfl rfl rfl rfl rfl none none broadcasts_S1x128_S10000x128
    (truncf .bf16 x0 bitsLt_bf16_f32) (truncf .bf16 x2 bitsLt_bf16_f32) (truncf .bf16 x1 bitsLt_bf16_f32)
    (truncf .bf16 x3 bitsLt_bf16_f32) x4 p q

/-- The output array's function: entry (r, q) from row `r` of `a` and `b`, the weights and the bias row. -/
def G (a : S200000x128.Idx → EReal) (b : S200000x128.Idx → EReal) (wa : S128x128.Idx → EReal) (wb : S128x128.Idx → EReal)
    (row : S1x128.Idx → EReal) : S200000x128.Idx → EReal :=
  fun i => Cert.SplitLinear.tileEntry a wa b wb row (i 0) (i 1)

theorem zero_offsets : (![0, 0] : Fin 2 → Nat) = fun _ => 0 := funext fun a => by fin_cases a <;> rfl

/-- The block index maps over the grid: the two row-tiled inputs and the output are at block `t` along the rows, the
    weights and the bias row always at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

/-- Row `p` of block `t`, as a row of the whole array. -/
def rowOf (t : Fin cfg1.N) (p : Fin 10000) : Fin 200000 :=
  ⟨10000 * t.val + p.val, by have := point_lt t; have := p.isLt; omega⟩

variable (V : (c : Dev nD) → (b : Ref sig .tc) → Buf (Elt Ideal) ((c : Thread nD τ).loc b))

/-- Block `t` of the node features, at (p, k): the array at row 10000·t + p. -/
theorem read_a (c : Dev nD) (t : Fin cfg1.N) (p : Fin 10000) (k : Fin 128) :
    iblk1 V c 0 t (ix2 p k) = V c main_arg0 (ix2 (rowOf t p) k) := by
  show V c main_arg0 (((cfg1.win 0).blk t).view.emb (ix2 p k)) = V c main_arg0 (ix2 (rowOf t p) k)
  refine congrArg (V c main_arg0) ?_
  obtain ⟨e0, e1, -⟩ := idx_facts t
  funext a; apply Fin.ext
  match a with
  | ⟨0, _⟩ => show win1_0.index t (0 : Fin 2) * 10000 + 1 * p.val = 10000 * t.val + p.val; omega
  | ⟨1, _⟩ => show win1_0.index t (1 : Fin 2) * 128 + 1 * k.val = k.val; omega

/-- Block `t` of the aggregated messages, at (p, k): the array at row 10000·t + p. -/
theorem read_b (c : Dev nD) (t : Fin cfg1.N) (p : Fin 10000) (k : Fin 128) :
    iblk1 V c 1 t (ix2 p k) = V c main_v17 (ix2 (rowOf t p) k) := by
  show V c main_v17 (((cfg1.win 1).blk t).view.emb (ix2 p k)) = V c main_v17 (ix2 (rowOf t p) k)
  refine congrArg (V c main_v17) ?_
  obtain ⟨-, -, e0, e1, -⟩ := idx_facts t
  funext a; apply Fin.ext
  match a with
  | ⟨0, _⟩ => show win1_1.index t (0 : Fin 2) * 10000 + 1 * p.val = 10000 * t.val + p.val; omega
  | ⟨1, _⟩ => show win1_1.index t (1 : Fin 2) * 128 + 1 * k.val = k.val; omega

/-- The upper weight block's one block is the whole array. -/
theorem read_wa (c : Dev nD) (t : Fin cfg1.N) (k : Fin 128) (q : Fin 128) :
    iblk1 V c 2 t (ix2 k q) = V c main_v18 (ix2 k q) := by
  show V c main_v18 (((cfg1.win 2).blk t).view.emb (ix2 k q)) = V c main_v18 (ix2 k q)
  refine congrArg (V c main_v18) ?_
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The lower weight block's one block is the whole array. -/
theorem read_wb (c : Dev nD) (t : Fin cfg1.N) (k : Fin 128) (q : Fin 128) :
    iblk1 V c 3 t (ix2 k q) = V c main_v19 (ix2 k q) := by
  show V c main_v19 (((cfg1.win 3).blk t).view.emb (ix2 k q)) = V c main_v19 (ix2 k q)
  refine congrArg (V c main_v19) ?_
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias row's one block is the whole array. -/
theorem read_row (c : Dev nD) (t : Fin cfg1.N) (u : Fin 1) (q : Fin 128) :
    iblk1 V c 4 t (ix2 u q) = V c main_v20 (ix2 u q) := by
  show V c main_v20 (((cfg1.win 4).blk t).view.emb (ix2 u q)) = V c main_v20 (ix2 u q)
  refine congrArg (V c main_v20) ?_
  obtain ⟨-, -, -, -, -, -, -, -, e0, e1, -⟩ := idx_facts t
  funext a; apply Fin.ext
  match a with
  | ⟨0, _⟩ => show win1_4.index t (0 : Fin 2) * 1 + 1 * u.val = u.val; omega
  | ⟨1, _⟩ => show win1_4.index t (1 : Fin 2) * 128 + 1 * q.val = q.val; omega

/-- An entry of the output's block `t` sits in the array at row 10000·t + p. -/
theorem out_emb (t : Fin cfg1.N) (p : Fin 10000) (q : Fin 128) :
    ((cfg1.win 5).blk t).view.emb (ix2 p q) = (ix2 (rowOf t p) q : S200000x128.Idx) := by
  obtain ⟨-, -, -, -, -, -, -, -, -, -, e0, e1⟩ := idx_facts t
  funext a; apply Fin.ext
  match a with
  | ⟨0, _⟩ => show win1_5.index t (0 : Fin 2) * 10000 + 1 * p.val = 10000 * t.val + p.val; omega
  | ⟨1, _⟩ => show win1_5.index t (1 : Fin 2) * 128 + 1 * q.val = q.val; omega

/-- WHAT POINT `t` WRITES BACK is block `t` of `G` of the arrays the launch finds. -/
theorem flushed_eq (c : Dev nD) (t : Fin cfg1.N) :
    (dat1 V c).flushed 5 t
      = ((cfg1.win 5).blk t).view.read (Elt Ideal) (G (V c main_arg0) (V c main_v17) (V c main_v18) (V c main_v19) (V c main_v20)) := by
  show (cfg1.win 5).cut (grid1.coords t) ((dat1 V c).after 5 t) = _
  rw [after1_5]
  unfold out1_5
  rw [View.canon_unit_zero zero_offsets]
  simp only [View.ld_unit_zero (S := S10000x128) zero_offsets, View.ld_unit_zero (S := S128x128) zero_offsets,
    View.ld_unit_zero (S := S1x128) zero_offsets]
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = G (V c main_arg0) (V c main_v17) (V c main_v18) (V c main_v19) (V c main_v20) (((cfg1.win 5).blk t).view.emb (ix2 p q))
  rw [pay_apply, out_emb]
  unfold G Cert.SplitLinear.tileEntry
  refine congrArg₂ (· + ·) (congrArg₂ (· + ·) (Finset.sum_congr rfl fun k _ => ?_) (Finset.sum_congr rfl fun k _ => ?_)) ?_
  · rw [read_a, read_wa]
  · rw [read_b, read_wb]
  · exact read_row V c t 0 q

/-- An index of the array is in point `t`'s block iff each coordinate is in the block's range on its axis. -/
theorem mem_blk (t : Fin cfg1.N) (i : S200000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v21).slice (win1_5.rect t)).set ↔ _
  rw [View.set_slice_whole, Rect.mem_set_unit]
  exact Iff.rfl

/-- Every block row is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- THE COVER: row `r` lies in the block of point `r / 10000`. -/
theorem cover (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- THE ARRAY after the launch: `G` of the arrays the launch finds. -/
theorem final (c : Dev nD) :
    (dat1 V c).arrAt 5 cfg1.N = G (V c main_arg0) (V c main_v17) (V c main_v18) (V c main_v19) (V c main_v20) :=
  (dat1 V c).arrAt_eq_of_cover 5 _ (fun t _ => flushed_eq V c t) cover

end Cert.KernelIdeal.Region1

end
-- ==== Proof.Stretches.lean ====
/-
  What the host operations between the launches leave in the arrays each launch reads.

  Before the first launch the host cuts the edge list into its source row and its destination row, wraps negative
  source indices round (adds the node count where the index is negative), gathers the source nodes' feature rows, cuts
  the first weight into its upper 128 rows and its lower 32 rows, and recasts the first bias as a [1, 128] row; the edge
  features are passed as they are. Between the launches it scatter-adds the first launch's output into a zero array by
  the destination indices, cuts the second weight into its upper and lower 128 rows and recasts the second bias; the node
  features are passed as they are. No stretch and no launch writes an argument array, so each is read back at its launch
  contents.
-/
import proofs.«103810_j10393820857012_1_alg».proof.Proof.Gen.KernelIdeal.Frame
import Idealize.ShloMosaic.Lib.StableHlo.Run
import Idealize.ShloMosaic.PureOps.Ideal

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

/-- The source-node index of each edge as a column [640000, 1]: row 0 of the edge list, a negative index wrapped round by
    adding the node count. -/
def rowIdx (ei : IVec S2x640000 32) : IVec S640000x1 32 :=
  broadcastInDim S640000x1 ![0] bcast_S640000_S640000x1_0
    (select (cmpi .slt (shapeCast S640000 (extractStridedSlice S1x640000 ![0, 0] ei slices_S2x640000_S1x640000_0_0) shapeCasts_S1x640000_S640000)
        (broadcastInDim S640000 ![] bcast_S_S640000 (constantI S_ 32 0#32)))
      (addi (shapeCast S640000 (extractStridedSlice S1x640000 ![0, 0] ei slices_S2x640000_S1x640000_0_0) shapeCasts_S1x640000_S640000)
        (broadcastInDim S640000 ![] bcast_S_S640000 (constantI S_ 32 200000#32)))
      (shapeCast S640000 (extractStridedSlice S1x640000 ![0, 0] ei slices_S2x640000_S1x640000_0_0) shapeCasts_S1x640000_S640000))

/-- The destination-node index of each edge as a vector [640000]: row 1 of the edge list. -/
def colVec (ei : IVec S2x640000 32) : IVec S640000 32 :=
  shapeCast S640000 (extractStridedSlice S1x640000 ![1, 0] ei slices_S2x640000_S1x640000_1_0) shapeCasts_S1x640000_S640000

variable (m : (ℓ : Loc nD τ sig) → Buf (Elt Ideal) ℓ) (ρ : Dev nD → PrngReg)

/-! ## The first stretch: from the launch memory to the first launch's entry -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl

/-- The gathered source-node features. -/
theorem V1_v10 (c : Dev nD) : V1 m ρ c main_v10
    = Host.gather gather_S200000x128_S640000x1_S640000x128_1_0_n_n_0_1_1128 (m ((c : Thread nD τ).loc main_arg0))
        (rowIdx (m ((c : Thread nD τ).loc main_arg1))) := by
  show StableHlo.after hostOps0 (W0 m ρ c) (Proc.devRef .tc main_v10) = _
  after_results <;> rfl

/-- The edge features, untouched. -/
theorem V1_arg2 (c : Dev nD) : V1 m ρ c main_arg2 = m ((c : Thread nD τ).loc main_arg2) := W1_arg2 m ρ c

/-- The upper 128 rows of the first weight. -/
theorem V1_v11 (c : Dev nD) : V1 m ρ c main_v11
    = extractStridedSlice S128x128 ![0, 0] (m ((c : Thread nD τ).loc main_arg5)) slices_S160x128_S128x128_0_0 := by
  show StableHlo.after hostOps0 (W0 m ρ c) (Proc.devRef .tc main_v11) = _
  after_results <;> rfl

/-- The lower 32 rows of the first weight. -/
theorem V1_v12 (c : Dev nD) : V1 m ρ c main_v12
    = extractStridedSlice S32x128 ![128, 0] (m ((c : Thread nD τ).loc main_arg5)) slices_S160x128_S32x128_128_0 := by
  show StableHlo.after hostOps0 (W0 m ρ c) (Proc.devRef .tc main_v12) = _
  after_results <;> rfl

/-- The first bias as a row. -/
theorem V1_v13 (c : Dev nD) : V1 m ρ c main_v13
    = shapeCast S1x128 (m ((c : Thread nD τ).loc main_arg6)) shapeCasts_S128_S1x128 := by
  show StableHlo.after hostOps0 (W0 m ρ c) (Proc.devRef .tc main_v13) = _
  after_results <;> rfl

/-- The destination indices, as the first stretch leaves them. -/
theorem W1_v3 (c : Dev nD) : W1 m ρ c (Proc.devRef .tc main_v3) = colVec (m ((c : Thread nD τ).loc main_arg1)) := by
  show StableHlo.after hostOps0 (W0 m ρ c) (Proc.devRef .tc main_v3) = _
  after_results <;> rfl

/-! ## The second stretch: from the first launch's exit to the second launch's entry -/

/-- The node features, untouched by either stretch or the first launch. -/
theorem V3_arg0 (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  exact W1_arg0 m ρ c

/-- The scatter-added messages: the first launch's output array summed into a zero array by destination index. -/
theorem V3_v17 (c : Dev nD) : V3 m ρ c main_v17
    = Host.scatterAdd scatter_S200000x128_S640000x1_S640000x128_1_0_0_1
        (broadcastInDim S200000x128 ![] bcast_S_S200000x128 (constant (F := Ideal) S_ .f32 0x00000000#32))
        (broadcastInDim S640000x1 ![0] bcast_S640000_S640000x1_0 (colVec (m ((c : Thread nD τ).loc main_arg1))))
        ((dat0 (V1 m ρ) c).arrAt 5 cfg0.N) := by
  show StableHlo.after hostOps1 (W2 m ρ c) (Proc.devRef .tc main_v17) = _
  after_results
  rw [W2_of_ne m ρ c main_v3 (by decide), W1_v3 m ρ c]
  rw [show W2 m ρ c (Proc.devRef .tc main_v14) = (dat0 (V1 m ρ) c).arrAt 5 cfg0.N from W2_arr m ρ c 5]

/-- The upper 128 rows of the second weight. -/
theorem V3_v18 (c : Dev nD) : V3 m ρ c main_v18
    = extractStridedSlice S128x128 ![0, 0] (m ((c : Thread nD τ).loc main_arg7)) slices_S256x128_S128x128_0_0 := by
  show StableHlo.after hostOps1 (W2 m ρ c) (Proc.devRef .tc main_v18) = _
  after_results
  rw [W2_of_ne m ρ c main_arg7 (by decide), W1_arg7 m ρ c]

/-- The lower 128 rows of the second weight. -/
theorem V3_v19 (c : Dev nD) : V3 m ρ c main_v19
    = extractStridedSlice S128x128 ![128, 0] (m ((c : Thread nD τ).loc main_arg7)) slices_S256x128_S128x128_128_0 := by
  show StableHlo.after hostOps1 (W2 m ρ c) (Proc.devRef .tc main_v19) = _
  after_results
  rw [W2_of_ne m ρ c main_arg7 (by decide), W1_arg7 m ρ c]

/-- The second bias as a row. -/
theorem V3_v20 (c : Dev nD) : V3 m ρ c main_v20
    = shapeCast S1x128 (m ((c : Thread nD τ).loc main_arg8)) shapeCasts_S128_S1x128 := by
  show StableHlo.after hostOps1 (W2 m ρ c) (Proc.devRef .tc main_v20) = _
  after_results
  rw [W2_of_ne m ρ c main_arg8 (by decide), W1_arg8 m ρ c]
  rfl

end Cert.KernelIdeal.Stretches

end
-- ==== Proof.KernelValue.lean ====
/-
  The idealized kernel program's result as one function of its arguments.

  The first launch's output is the linear layer [x[src] | edge_attr] · W1 + b1 over the 640000 edges (`messages`): the
  launch computes, entry by entry, the two block sums against the upper 128 and lower 32 rows cut from W1 plus the recast
  bias, and that is the entry of the layer. The host then sums the messages into the 200000 nodes by destination index
  (`aggregated`, a scatter-add into zeros). The second launch's output is the linear layer [x | aggregated] · W2 + b2
  (`result`), by the same reading with W2's two blocks of 128 rows. The result buffer ends at the second launch's output.
-/
import proofs.«103810_j10393820857012_1_alg».proof.Proof.KernelRun
import proofs.«103810_j10393820857012_1_alg».proof.Proof.Region0
import proofs.«103810_j10393820857012_1_alg».proof.Proof.Region1
import proofs.«103810_j10393820857012_1_alg».proof.Proof.Stretches
import proofs.«103810_j10393820857012_1_alg».proof.Proof.LibSplitLinear

set_option maxRecDepth 16384

noncomputable section

namespace Cert.KernelIdeal.Whole

open Cert.KernelIdeal Cert.KernelIdeal.Gen
open Idealize.ShloMosaic Idealize.ShloMosaic.TcCoe Idealize.SL.Sem

/-- The message of every edge: [gathered source features | edge features] · W1 + b1. -/
def messages (x : FVec Ideal S200000x128 .f32) (ei : IVec S2x640000 32) (ea : FVec Ideal S640000x32 .f32)
    (W1 : FVec Ideal S160x128 .f32) (b1 : FVec Ideal S128 .f32) : FVec Ideal S640000x128 .f32 :=
  Cert.SplitLinear.layer (rfl : 128 + 32 = 160)
    (Host.gather gather_S200000x128_S640000x1_S640000x128_1_0_n_n_0_1_1128 x (Stretches.rowIdx ei)) ea W1 b1

/-- The messages summed into their destination nodes, from zero. -/
def aggregated (msg : FVec Ideal S640000x128 .f32) (ei : IVec S2x640000 32) : FVec Ideal S200000x128 .f32 :=
  Host.scatterAdd scatter_S200000x128_S640000x1_S640000x128_1_0_0_1
    (broadcastInDim S200000x128 ![] bcast_S_S200000x128 (constant (F := Ideal) S_ .f32 0x00000000#32))
    (broadcastInDim S640000x1 ![0] bcast_S640000_S640000x1_0 (Stretches.colVec ei)) msg

/-- The node update: [x | aggregated messages] · W2 + b2. -/
def result (x : FVec Ideal S200000x128 .f32) (ei : IVec S2x640000 32) (ea : FVec Ideal S640000x32 .f32)
    (W1 : FVec Ideal S160x128 .f32) (b1 : FVec Ideal S128 .f32) (W2 : FVec Ideal S256x128 .f32) (b2 : FVec Ideal S128 .f32) :
    FVec Ideal S200000x128 .f32 :=
  Cert.SplitLinear.layer (rfl : 128 + 128 = 256) x (aggregated (messages x ei ea W1 b1) ei) W2 b2

/-- The first launch's array function at the cut weights and recast bias is the first layer. -/
theorem region0_eq (g : FVec Ideal S640000x128 .f32) (ea : FVec Ideal S640000x32 .f32) (W1 : FVec Ideal S160x128 .f32)
    (b1 : FVec Ideal S128 .f32) :
    Region0.G g ea (extractStridedSlice S128x128 ![0, 0] W1 slices_S160x128_S128x128_0_0)
        (extractStridedSlice S32x128 ![128, 0] W1 slices_S160x128_S32x128_128_0) (shapeCast S1x128 b1 shapeCasts_S128_S1x128)
      = Cert.SplitLinear.layer (rfl : 128 + 32 = 160) g ea W1 b1 :=
  Cert.SplitLinear.tile_cut_eq (rfl : 128 + 32 = 160) slices_S160x128_S128x128_0_0 slices_S160x128_S32x128_128_0
    shapeCasts_S128_S1x128 g ea W1 b1

/-- The second launch's array function at the cut weights and recast bias is the second layer. -/
theorem region1_eq (x : FVec Ideal S200000x128 .f32) (agg : FVec Ideal S200000x128 .f32) (W2 : FVec Ideal S256x128 .f32)
    (b2 : FVec Ideal S128 .f32) :
    Region1.G x agg (extractStridedSlice S128x128 ![0, 0] W2 slices_S256x128_S128x128_0_0)
        (extractStridedSlice S128x128 ![128, 0] W2 slices_S256x128_S128x128_128_0) (shapeCast S1x128 b2 shapeCasts_S128_S1x128)
      = Cert.SplitLinear.layer (rfl : 128 + 128 = 256) x agg W2 b2 :=
  Cert.SplitLinear.tile_cut_eq (rfl : 128 + 128 = 256) slices_S256x128_S128x128_0_0 slices_S256x128_S128x128_128_0
    shapeCasts_S128_S1x128 x agg W2 b2

variable (m : (ℓ : Loc nD τ sig) → Buf (Elt Ideal) ℓ) (ρ : Dev nD → PrngReg)

/-- The last boundary's contents at the result buffer: `result` of the argument arrays as launched. -/
theorem W4_result (c : Dev nD) :
    W4 m ρ c (Proc.devRef .tc main_v21)
      = result (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7))
          (m ((c : Thread nD τ).loc main_arg8)) := by
  rw [show W4 m ρ c (Proc.devRef .tc main_v21) = (dat1 (V3 m ρ) c).arrAt 5 cfg1.N from W4_arr m ρ c 5]
  rw [Region1.final (V3 m ρ) c, Stretches.V3_arg0 m ρ c, Stretches.V3_v17 m ρ c, Stretches.V3_v18 m ρ c,
    Stretches.V3_v19 m ρ c, Stretches.V3_v20 m ρ c]
  rw [Region0.final (V1 m ρ) c, Stretches.V1_v10 m ρ c, Stretches.V1_arg2 m ρ c, Stretches.V1_v11 m ρ c,
    Stretches.V1_v12 m ρ c, Stretches.V1_v13 m ρ c]
  rw [region0_eq, region1_eq]
  rfl

/-- THE RUN: every weakly fair execution terminates with the result buffer at `result` of the arguments and the arguments
    unchanged. -/
theorem run : θ_run defs (onTc (τ := τ) (main (F := Ideal))) ⟨m, fun _ => 0, ρ⟩ (fun r => ∀ c : Dev nD,
      r.2.mem ((c.tc : Thread nD τ).loc main_v21)
        = result (m ((c.tc : Thread nD τ).loc main_arg0)) (m ((c.tc : Thread nD τ).loc main_arg1)) (m ((c.tc : Thread nD τ).loc main_arg2))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W4_result m ρ c), (h c).2⟩) (Cert.KernelIdeal.Named.run m ρ)

end Cert.KernelIdeal.Whole

end
-- ==== Proof.RefValue.lean ====
/-
  The idealized reference's result as one function of its arguments.

  The reference gathers the source nodes' feature rows, joins them with the edge features along the columns, multiplies by
  the whole W1 and adds b1 (repeated down the rows): the linear layer [x[src] | edge_attr] · W1 + b1 (`messages`). It sums the
  messages into the nodes by destination index from zero (`aggregated`), joins the node features with that sum, multiplies by
  the whole W2 and adds b2: the layer [x | aggregated] · W2 + b2 (`result`). Each "join, multiply, add the bias" is the layer
  entry by entry (`Cert.SplitLinear.host_eq`); the gather and the scatter-add are carried as they are.
-/
import proofs.«103810_j10393820857012_1_alg».proof.Proof.Gen.ReferenceIdeal.Run
import proofs.«103810_j10393820857012_1_alg».proof.Proof.LibSplitLinear

set_option maxRecDepth 16384

noncomputable section

namespace Cert.ReferenceIdeal.RefValue

open Cert.ReferenceIdeal Cert.ReferenceIdeal.Gen
open Idealize.ShloMosaic Idealize.ShloMosaic.TcCoe Idealize.SL.Sem

/-- The source-node index of each edge as a column [640000, 1]: row 0 of the edge list, a negative index wrapped round by
    adding the node count. -/
def rowIdx (ei : IVec S2x640000 32) : IVec S640000x1 32 :=
  broadcastInDim S640000x1 ![0] bcast_S640000_S640000x1_0
    (select (cmpi .slt (shapeCast S640000 (extractStridedSlice S1x640000 ![0, 0] ei slices_S2x640000_S1x640000_0_0) shapeCasts_S1x640000_S640000)
        (broadcastInDim S640000 ![] bcast_S_S640000 (constantI S_ 32 0#32)))
      (addi (shapeCast S640000 (extractStridedSlice S1x640000 ![0, 0] ei slices_S2x640000_S1x640000_0_0) shapeCasts_S1x640000_S640000)
        (broadcastInDim S640000 ![] bcast_S_S640000 (constantI S_ 32 200000#32)))
      (shapeCast S640000 (extractStridedSlice S1x640000 ![0, 0] ei slices_S2x640000_S1x640000_0_0) shapeCasts_S1x640000_S640000))

/-- The destination-node index of each edge as a vector [640000]: row 1 of the edge list. -/
def colVec (ei : IVec S2x640000 32) : IVec S640000 32 :=
  shapeCast S640000 (extractStridedSlice S1x640000 ![1, 0] ei slices_S2x640000_S1x640000_1_0) shapeCasts_S1x640000_S640000

/-- The message of every edge: [gathered source features | edge features] · W1 + b1. -/
def messages (x : FVec Ideal S200000x128 .f32) (ei : IVec S2x640000 32) (ea : FVec Ideal S640000x32 .f32)
    (W1 : FVec Ideal S160x128 .f32) (b1 : FVec Ideal S128 .f32) : FVec Ideal S640000x128 .f32 :=
  Cert.SplitLinear.layer (rfl : 128 + 32 = 160)
    (Host.gather gather_S200000x128_S640000x1_S640000x128_1_0_n_n_0_1_1128 x (rowIdx ei)) ea W1 b1

/-- The messages summed into their destination nodes, from zero. -/
def aggregated (msg : FVec Ideal S640000x128 .f32) (ei : IVec S2x640000 32) : FVec Ideal S200000x128 .f32 :=
  Host.scatterAdd scatter_S200000x128_S640000x1_S640000x128_1_0_0_1
    (broadcastInDim S200000x128 ![] bcast_S_S200000x128 (constant (F := Ideal) S_ .f32 0x00000000#32))
    (broadcastInDim S640000x1 ![0] bcast_S640000_S640000x1_0 (colVec ei)) msg

/-- The node update: [x | aggregated messages] · W2 + b2. -/
def result (x : FVec Ideal S200000x128 .f32) (ei : IVec S2x640000 32) (ea : FVec Ideal S640000x32 .f32)
    (W1 : FVec Ideal S160x128 .f32) (b1 : FVec Ideal S128 .f32) (W2 : FVec Ideal S256x128 .f32) (b2 : FVec Ideal S128 .f32) :
    FVec Ideal S200000x128 .f32 :=
  Cert.SplitLinear.layer (rfl : 128 + 128 = 256) x (aggregated (messages x ei ea W1 b1) ei) W2 b2

/-- The reference run's result term is `result` of the arguments. -/
theorem term_eq (x : FVec Ideal S200000x128 .f32) (ei : IVec S2x640000 32) (ea : FVec Ideal S640000x32 .f32)
    (W1 : FVec Ideal S160x128 .f32) (b1 : FVec Ideal S128 .f32) (W2 : FVec Ideal S256x128 .f32) (b2 : FVec Ideal S128 .f32) :
    addf (Host.dotGeneral dot_S200000x256_S256x128_S200000x128_1_0_0_1_n_n none (concatenate S200000x256 1 [⟨S200000x128, x⟩, ⟨S200000x128, (Host.scatterAdd scatter_S200000x128_S640000x1_S640000x128_1_0_0_1 (broadcastInDim S200000x128 ![] bcast_S_S200000x128 (constant (F := Ideal) S_ .f32 0x00000000#32)) (broadcastInDim S640000x1 ![0] bcast_S640000_S640000x1_0 (shapeCast _ (extractStridedSlice S1x640000 ![1, 0] ei slices_S2x640000_S1x640000_1_0) shapeCasts_S1x640000_S640000)) (addf (Host.dotGeneral dot_S640000x160_S160x128_S640000x128_1_0_0_1_n_n none (concatenate S640000x160 1 [⟨S640000x128, (Host.gather gather_S200000x128_S640000x1_S640000x128_1_0_n_n_0_1_1128 x (broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 200000#32))) (shapeCast _ (extractStridedSlice S1x640000 ![0, 0] ei slices_S2x640000_S1x640000_0_0) shapeCasts_S1x640000_S640000))))⟩, ⟨S640000x32, ea⟩] concatenates_S640000x128_S640000x32_S640000x160_d1) W1) (broadcastInDim S640000x128 ![0, 1] bcast_S1x128_S640000x128_0_1 (broadcastInDim S1x128 ![1] bcast_S128_S1x128_1 b1))))⟩] concatenates_S200000x128_S200000x128_S200000x256_d1) W2) (broadcastInDim S200000x128 ![0, 1] bcast_S1x128_S200000x128_0_1 (broadcastInDim S1x128 ![1] bcast_S128_S1x128_1 b2))
      = result x ei ea W1 b1 W2 b2 := by
  rw [Cert.SplitLinear.host_eq (rfl : 128 + 32 = 160) dot_S640000x160_S160x128_S640000x128_1_0_0_1_n_n rfl rfl rfl rfl rfl rfl rfl rfl
    none concatenates_S640000x128_S640000x32_S640000x160_d1 bcast_S128_S1x128_1 bcast_S1x128_S640000x128_0_1]
  rw [Cert.SplitLinear.host_eq (rfl : 128 + 128 = 256) dot_S200000x256_S256x128_S200000x128_1_0_0_1_n_n rfl rfl rfl rfl rfl rfl rfl rfl
    none concatenates_S200000x128_S200000x128_S200000x256_d1 bcast_S128_S1x128_1 bcast_S1x128_S200000x128_0_1]
  rfl

end Cert.ReferenceIdeal.RefValue

end
-- ==== Proof.lean ====
/-
  A message-passing node update, computed two ways, is one function of its inputs over the extended reals.

  Both programs gather the source nodes' feature rows `x[src]` along the edges, form the edge messages
  `[x[src] | edge_attr] · W1 + b1`, sum the messages into their destination nodes, and return `[x | sum] · W2 + b2`.
  The reference joins the two column blocks and multiplies by the whole weight; the kernel program multiplies each block by
  its own rows of the weight, in row tiles, and adds the two products. A sum over the joined columns is the sum over the
  first block's columns plus the sum over the second's, so the two agree entry by entry; only the associativity and
  commutativity of addition are used, which hold at the infinities too, so the inputs' finiteness is never opened. The gather
  and the scatter-add are the same operations on both sides and are carried unopened.

  The three programs' runs terminate with their arguments unchanged (the frames); the idealization rewrote nothing, so it has
  nothing to preserve.
-/
import proofs.«103810_j10393820857012_1_alg».proof.Defs
import proofs.«103810_j10393820857012_1_alg».proof.Proof.Gen.Kernel
import proofs.«103810_j10393820857012_1_alg».proof.Proof.Gen.Kernel.Frame
import proofs.«103810_j10393820857012_1_alg».proof.Proof.Gen.KernelIdeal
import proofs.«103810_j10393820857012_1_alg».proof.Proof.Gen.KernelIdeal.Frame
import proofs.«103810_j10393820857012_1_alg».proof.Proof.Gen.ReferenceIdeal
import proofs.«103810_j10393820857012_1_alg».proof.Proof.Gen.ReferenceIdeal.Run
import proofs.«103810_j10393820857012_1_alg».proof.Proof.Gen.Pre_finite_inputs
import proofs.«103810_j10393820857012_1_alg».proof.Proof.KernelValue
import proofs.«103810_j10393820857012_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' result functions are one: the same layers over the same gather and the same scatter-add (the two
    programs state the operations' dimension records separately, field for field alike). -/
theorem results_agree (x : FVec Ideal Cert.KernelIdeal.S200000x128 .f32) (ei : IVec Cert.KernelIdeal.S2x640000 32)
    (ea : FVec Ideal Cert.KernelIdeal.S640000x32 .f32) (W1 : FVec Ideal Cert.KernelIdeal.S160x128 .f32)
    (b1 : FVec Ideal Cert.KernelIdeal.S128 .f32) (W2 : FVec Ideal Cert.KernelIdeal.S256x128 .f32)
    (b2 : FVec Ideal Cert.KernelIdeal.S128 .f32) :
    Cert.ReferenceIdeal.RefValue.result x ei ea W1 b1 W2 b2 = Cert.KernelIdeal.Whole.result x ei ea W1 b1 W2 b2 := rfl

/-- From memories agreeing on the arguments both runs end with the result buffer at one function of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, -, h5, h6, h7, h8⟩ := hagree c
  rw [h0, h1, h2, h5, h6, h7, h8]
  exact (Cert.ReferenceIdeal.RefValue.term_eq _ _ _ _ _ _ _).trans (results_agree _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
